-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x512 : Shape := ⟨2, ![128, 512]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128x512 .f32) (main_arg5 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S131072x128 .f32) (main_arg1 : FVec F S131072x128 .f32) (main_arg2 : FVec F S131072x128 .f32) (main_arg3 : FVec F S128x512 .f32) (main_arg4 : FVec F S128x512 .f32) (main_arg5 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S131072x128 : Shape := ⟨2, ![131072, 128]⟩
abbrev S128x512 : Shape := ⟨2, ![128, 512]⟩
abbrev S512 : Shape := ⟨1, ![512]⟩
abbrev S256x512 : Shape := ⟨2, ![256, 512]⟩
abbrev S1x512 : Shape := ⟨2, ![1, 512]⟩
abbrev S4096x128 : Shape := ⟨2, ![4096, 128]⟩
abbrev S4096x256 : Shape := ⟨2, ![4096, 256]⟩
abbrev S4096x512 : Shape := ⟨2, ![4096, 512]⟩

abbrev nBuf : Space → Nat
  | .hbm => 11
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x512, .f32⟩
  | .hbm, ⟨4, _⟩ => ⟨S128x512, .f32⟩
  | .hbm, ⟨5, _⟩ => ⟨S512, .f32⟩
  | .hbm, ⟨6, _⟩ => ⟨S256x512, .f32⟩
  | .hbm, ⟨7, _⟩ => ⟨S256x512, .bf16⟩
  | .hbm, ⟨8, _⟩ => ⟨S1x512, .f32⟩
  | .hbm, ⟨9, _⟩ => ⟨S131072x128, .f32⟩
  | .hbm, ⟨10, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x512, .bf16⟩
  | .local _ .vmem, ⟨7, _⟩ => ⟨S1x512, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128x512_S128x512_S256x512_d0 : Shape.Concatenates [S128x512, S128x512] S256x512 0
  bitsLt_bf16_f32 : FTy.bits .bf16 < FTy.bits .f32
  shapeCasts_S512_S1x512 : S512.ShapeCasts S1x512
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x512 : Shape := ⟨2, ![128, 512]⟩
abbrev S512 : Shape := ⟨1, ![512]⟩
abbrev S131072x512 : Shape := ⟨2, ![131072, 512]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x512, .f32⟩
  | .hbm, ⟨4, _⟩ => ⟨S128x512, .f32⟩
  | .hbm, ⟨5, _⟩ => ⟨S512, .f32⟩
  | .hbm, ⟨6, _⟩ => ⟨S131072x512, .f32⟩
  | .hbm, ⟨7, _⟩ => ⟨S131072x512, .f32⟩
  | .hbm, ⟨8, _⟩ => ⟨S131072x512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.Spec.lean ====
/-
  The specification: one step of a recurrent cell whose four gates all pass through tanh, as ONE function of the
  argument arrays, index by index, on the extended reals.

  For a batch row `r` the 512-wide pre-activation is
      z r q = (Σ_{k<128} x r k · W k q + Σ_{k<128} h r k · U k q) + b q,
  its four 128-wide column groups feed the input gate (columns 0..127), the forget gate (128..255), the candidate
  (256..383) and the output gate (384..511), and for a column `j < 128`
      c' r j = tanh (z r (128 + j)) · c r j + tanh (z r j) · tanh (z r (256 + j)),
      h' r j = tanh (z r (384 + j)) · tanh (c' r j).
  Every operation is the exact one on the extended reals; tanh is the total function with tanh ⊥ = -1, tanh ⊤ = 1.

  The one law the two programs differ by is also here: a sum of 256 terms is the sum of its first 128 plus the sum of
  its last 128. It uses only that + is associative and commutative, so it holds at the infinities too and no
  finiteness of the inputs is ever needed.
-/
import Idealize.ShloMosaic.PureOps.Ideal
import Idealize.ShloMosaic.Lib.ValueIdx

noncomputable section

open scoped BigOperators

namespace Cert.CellSpec

open Idealize.ShloMosaic Idealize.ShloMosaic.ValueIdx

/-- The batch-by-feature arrays: the input, the previous hidden state, the previous cell state, and both results. -/
abbrev Rows : Shape := ⟨2, ![131072, 128]⟩
/-- A weight matrix: 128 contracted rows, 512 gate columns. -/
abbrev Wts : Shape := ⟨2, ![128, 512]⟩
/-- The bias: one entry per gate column. -/
abbrev Bias : Shape := ⟨1, ![512]⟩

/-- Column `j` of the gate whose columns start at offset `o` of the 512-wide pre-activation. -/
def col (o : Nat) (ho : o + 128 ≤ 512) (j : Fin 128) : Fin 512 := ⟨o + j.val, by have := j.isLt; omega⟩

theorem col_val (o : Nat) (ho : o + 128 ≤ 512) (j : Fin 128) : (col o ho j).val = o + j.val := rfl

/-- The pre-activation of row `r` at gate column `q`: the input's and the hidden state's projections, added, plus the bias. -/
def preact (x h : Rows.Idx → EReal) (W U : Wts.Idx → EReal) (b : Bias.Idx → EReal) (r : Fin 131072) (q : Fin 512) : EReal :=
  (∑ k : Fin 128, x (ix2 r k) * W (ix2 k q) + ∑ k : Fin 128, h (ix2 r k) * U (ix2 k q)) + b (ix1 q)

/-- The new cell state: forget gate times the old cell state, plus input gate times the candidate. -/
def cellNext (x h c : Rows.Idx → EReal) (W U : Wts.Idx → EReal) (b : Bias.Idx → EReal) : Rows.Idx → EReal := fun i =>
  Ideal.tanh (preact x h W U b (i 0) (col 128 (by norm_num) (i 1))) * c i
    + Ideal.tanh (preact x h W U b (i 0) (col 0 (by norm_num) (i 1)))
      * Ideal.tanh (preact x h W U b (i 0) (col 256 (by norm_num) (i 1)))

/-- The new hidden state: output gate times tanh of the new cell state. -/
def hidNext (x h c : Rows.Idx → EReal) (W U : Wts.Idx → EReal) (b : Bias.Idx → EReal) : Rows.Idx → EReal := fun i =>
  Ideal.tanh (preact x h W U b (i 0) (col 384 (by norm_num) (i 1))) * Ideal.tanh (cellNext x h c W U b i)

/-- A sum of 256 terms is the sum of the first 128 plus the sum of the last 128 (associativity and commutativity of +
    only: true on the extended reals whatever the terms). -/
theorem sum_halves (f : Fin 256 → EReal) :
    ∑ k : Fin 256, f k
      = ∑ k : Fin 128, f ⟨k.val, by have := k.isLt; omega⟩ + ∑ k : Fin 128, f ⟨128 + k.val, by have := k.isLt; omega⟩ :=
  Fin.sum_univ_add (M := EReal) (a := 128) (b := 128) f

end Cert.CellSpec

end
-- ==== Proof.RefIsSpec.lean ====
/-
  The reference computes the specification.

  Read one operation at a time, the reference's 512-wide pre-activation at row `r`, column `q` is the input's
  projection plus the hidden state's projection plus the bias — the specification's `preact` with nothing to
  rearrange — and its four column slices, their tanh, the two products and the sum are the specification's new cell
  state, the last product its new hidden state: the same operations in the same order, so once the layout operations'
  indices are spelt as coordinates the two sides are one term.
-/
import proofs.«181633_j30640296690430_2_alg».proof.Proof.Gen.ReferenceIdeal.Read
import proofs.«181633_j30640296690430_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CellSpec

variable (x0 x1 x2 : (⟨S131072x128, .f32⟩ : BufTy).Contents (Elt Ideal))
  (x3 x4 : (⟨S128x512, .f32⟩ : BufTy).Contents (Elt Ideal)) (x5 : (⟨S512, .f32⟩ : BufTy).Contents (Elt Ideal))

/-- The reference's pre-activation (both projections added, then the broadcast bias) at an index is the specification's:
    each dot product contracts the operand's 128 columns against the weight's 128 rows, and the bias entry is the
    column's. -/
theorem preact_eq (i : S131072x512.Idx) :
    val_main_v5 (F := Ideal) x0 x1 x3 x4 x5 i = preact x0 x1 x3 x4 x5 (i 0) (i 1) := by
  have el0 : ∀ k : Fin 128, lidx_main_v0 i k = ix2 (n0 := 131072) (n1 := 128) (i 0) k := fun k => funext fun a => by
    match a with | ⟨0, _⟩ => rfl | ⟨1, _⟩ => rfl
  have er0 : ∀ k : Fin 128, ridx_main_v0 i k = ix2 (n0 := 128) (n1 := 512) k (i 1) := fun k => funext fun a => by
    match a with | ⟨0, _⟩ => rfl | ⟨1, _⟩ => rfl
  have el1 : ∀ k : Fin 128, lidx_main_v1 i k = ix2 (n0 := 131072) (n1 := 128) (i 0) k := fun k => funext fun a => by
    match a with | ⟨0, _⟩ => rfl | ⟨1, _⟩ => rfl
  have er1 : ∀ k : Fin 128, ridx_main_v1 i k = ix2 (n0 := 128) (n1 := 512) k (i 1) := fun k => funext fun a => by
    match a with | ⟨0, _⟩ => rfl | ⟨1, _⟩ => rfl
  have eb : idx_main_v3 (idx_main_v4 i) = ix1 (n := 512) (i 1) := funext fun a => by
    match a with | ⟨0, _⟩ => rfl
  rw [val_main_v5_apply, val_main_v2_apply, val_main_v0_apply, val_main_v1_apply, val_main_v4_apply, val_main_v3_apply]
  simp only [el0, er0, el1, er1, eb]
  rfl

/-- The reference's new cell state is the specification's: the slices at column offsets 128, 0 and 256 are the forget
    gate's, the input gate's and the candidate's columns. -/
theorem cell_eq : val_main_v15 (F := Ideal) x0 x1 x2 x3 x4 x5 = cellNext x0 x1 x2 x3 x4 x5 := by
  funext i
  rw [val_main_v15_apply, val_main_v12_apply, val_main_v14_apply, val_main_v11_apply, val_main_v10_apply,
    val_main_v13_apply, val_main_v7_apply, val_main_v6_apply, val_main_v8_apply]
  simp only [preact_eq]
  have r6 : idx_main_v6 i 0 = i 0 := rfl
  have c6 : idx_main_v6 i 1 = col 0 (by norm_num) (i 1) := Fin.ext (by show (i 1).val = 0 + (i 1).val; omega)
  have r7 : idx_main_v7 i 0 = i 0 := rfl
  have c7 : idx_main_v7 i 1 = col 128 (by norm_num) (i 1) := Fin.ext (by show 128 + (i 1).val = 128 + (i 1).val; rfl)
  have r8 : idx_main_v8 i 0 = i 0 := rfl
  have c8 : idx_main_v8 i 1 = col 256 (by norm_num) (i 1) := Fin.ext (by show 256 + (i 1).val = 256 + (i 1).val; rfl)
  rw [r6, c6, r7, c7, r8, c8]
  rfl

/-- The reference's new hidden state is the specification's: the slice at column offset 384 is the output gate's. -/
theorem hid_eq : val_main_v18 (F := Ideal) x0 x1 x2 x3 x4 x5 = hidNext x0 x1 x2 x3 x4 x5 := by
  funext i
  rw [val_main_v18_apply, val_main_v16_apply, val_main_v17_apply, val_main_v9_apply, cell_eq]
  simp only [preact_eq]
  have r9 : idx_main_v9 i 0 = i 0 := rfl
  have c9 : idx_main_v9 i 1 = col 384 (by norm_num) (i 1) := Fin.ext (by show 384 + (i 1).val = 384 + (i 1).val; rfl)
  rw [r9, c9]
  rfl

end Cert.ReferenceIdeal.RefValue

end
-- ==== Proof.PreactAt.lean ====
/-
  The kernel's pre-activation, read at an index.

  The body casts the input block and the hidden-state block to bf16 (the identity on extended reals), sets them side by
  side as one 256-column block, multiplies that by the 256-row stacked weight into a zero accumulator, and adds the bias
  row broadcast down the rows. At row `p`, column `q` that is
      (Σ_{k<256} [x | h] p k · w k q) + bias 0 q,
  and since the first 128 columns of [x | h] are x's and the last 128 are h's, splitting the sum in halves gives
      (Σ_{k<128} x p k · w k q  +  Σ_{k<128} h p k · w (128 + k) q) + bias 0 q.
-/
import proofs.«181633_j30640296690430_2_alg».proof.Proof.Gen.KernelIdeal.Skeleton
import proofs.«181633_j30640296690430_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.CellSpec

/-- Row `k` of the stacked weight's upper half. -/
def upper (k : Fin 128) : Fin 256 := ⟨k.val, by have := k.isLt; omega⟩
/-- Row `128 + k` of the stacked weight: row `k` of its lower half. -/
def lower (k : Fin 128) : Fin 256 := ⟨128 + k.val, by have := k.isLt; omega⟩

/-- Two 128-column blocks set side by side, read in the left half: the left block. -/
theorem beside_left (A B : FVec Ideal S4096x128 .bf16) (p : Fin 4096) (k : Fin 128) :
    concatenate S4096x256 1 [⟨S4096x128, A⟩, ⟨S4096x128, B⟩] concatenates_S4096x128_S4096x128_S4096x256_d1
      (ix2 (n0 := 4096) (n1 := 256) p (upper k)) = A (ix2 (n0 := 4096) (n1 := 128) p k) :=
  concatenate_pair_apply_left (1 : Fin S4096x256.rank) A B concatenates_S4096x128_S4096x128_S4096x256_d1
    (ix2 (n0 := 4096) (n1 := 256) p (upper k)) rfl (ix2 (n0 := 4096) (n1 := 128) p k)
    (fun b => match b with | ⟨0, _⟩ => rfl | ⟨1, _⟩ => rfl)

/-- … and in the right half: the right block, 128 columns back. -/
theorem beside_right (A B : FVec Ideal S4096x128 .bf16) (p : Fin 4096) (k : Fin 128) :
    concatenate S4096x256 1 [⟨S4096x128, A⟩, ⟨S4096x128, B⟩] concatenates_S4096x128_S4096x128_S4096x256_d1
      (ix2 (n0 := 4096) (n1 := 256) p (lower k)) = B (ix2 (n0 := 4096) (n1 := 128) p k) :=
  concatenate_pair_apply_right (1 : Fin S4096x256.rank) A B concatenates_S4096x128_S4096x128_S4096x256_d1
    (ix2 (n0 := 4096) (n1 := 256) p (lower k)) rfl rfl (ix2 (n0 := 4096) (n1 := 128) p k)
    (fun b => match b with
      | ⟨0, _⟩ => fun _ => rfl
      | ⟨1, _⟩ => fun h => absurd rfl h)
    (by show k.val + 128 = 128 + k.val; omega)

theorem lhs_row (i : S4096x512.Idx) (q : dot_S4096x256_S256x512_S4096x512_1_0_0_1_n_n.contr.Idx) : (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl

theorem rhs_col (i : S4096x512.Idx) (q : dot_S4096x256_S256x512_S4096x512_1_0_0_1_n_n.contr.Idx) : (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- The matrix product into a zero accumulator at row `p`, column `q`: the left operand's row against the right
    operand's column, over the 256 contracted positions. -/
theorem product_at (A : FVec Ideal S4096x256 .bf16) (B : FVec Ideal S256x512 .bf16) (p : Fin 4096) (q : Fin 512) :
    FloatOps.matmul dot_S4096x256_S256x512_S4096x512_1_0_0_1_n_n none A B (constant (F := Ideal) S4096x512 .f32 0x00000000#32) (ix2 (n0 := 4096) (n1 := 512) p q)
      = ∑ k : Fin 256, A (ix2 (n0 := 4096) (n1 := 256) p k) * B (ix2 (n0 := 256) (n1 := 512) k q) := by
  refine (Ideal.matmul_constant_zero_apply dot_S4096x256_S256x512_S4096x512_1_0_0_1_n_n none A B _).trans ?_
  rw [← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 (n0 := 4096) (n1 := 512) p q) ((contrEquiv1 dot_S4096x256_S256x512_S4096x512_1_0_0_1_n_n 256 rfl rfl).symm k)
      = ix2 (n0 := 4096) (n1 := 256) p k := funext fun a => Fin.ext (by
    match a with
    | ⟨0, _⟩ => exact lhs_row _ _
    | ⟨1, _⟩ => exact (dot_S4096x256_S256x512_S4096x512_1_0_0_1_n_n.lhsIdx_val_of_single rfl _ _).trans hk)
  have er : dot_S4096x256_S256x512_S4096x512_1_0_0_1_n_n.rhsIdx (ix2 (n0 := 4096) (n1 := 512) p q) ((contrEquiv1 dot_S4096x256_S256x512_S4096x512_1_0_0_1_n_n 256 rfl rfl).symm k)
      = ix2 (n0 := 256) (n1 := 512) k q := funext fun a => Fin.ext (by
    match a with
    | ⟨0, _⟩ => exact (dot_S4096x256_S256x512_S4096x512_1_0_0_1_n_n.rhsIdx_val_of_single rfl _ _).trans hk
    | ⟨1, _⟩ => exact rhs_col _ _)
  rw [el, er]

/-- The bias row broadcast down the 4096 rows, at row `p`, column `q`: the row's entry `q`. -/
theorem bias_at (P3 : Vec Ideal S1x512 .f32) (p : Fin 4096) (q : Fin 512) :
    broadcastTo S4096x512 (shapeCast S1x512 P3 shapeCasts_S1x512_S1x512) broadcasts_S1x512_S4096x512
      (ix2 (n0 := 4096) (n1 := 512) p q) = P3 (ix2 (n0 := 1) (n1 := 512) 0 q) := by
  rw [shapeCast_self]
  exact broadcastTo_apply P3 broadcasts_S1x512_S4096x512 (ix2 (n0 := 4096) (n1 := 512) p q)
    (ix2 (n0 := 1) (n1 := 512) 0 q) (fun a => match a with
      | ⟨0, _⟩ => by show 0 = if (1 : Nat) = 1 then 0 else p.val; rw [if_pos rfl]
      | ⟨1, _⟩ => by show q.val = if (512 : Nat) = 1 then 0 else q.val; rw [if_neg (by decide)])

/-- THE PRE-ACTIVATION AT AN INDEX: at row `p`, column `q` the body's matmul-plus-bias is the input block's row against the
    stacked weight's upper 128 rows, plus the hidden-state block's row against its lower 128 rows, plus the bias entry. -/
theorem preact_at (P0 P1 : Vec Ideal S4096x128 .f32) (P2 : FVec Ideal S256x512 .bf16) (P3 : Vec Ideal S1x512 .f32)
    (p : Fin 4096) (q : Fin 512) :
    k0_pay1 (F := Ideal) P0 P1 P2 P3 (ix2 (n0 := 4096) (n1 := 512) p q)
      = (∑ k : Fin 128, P0 (ix2 (n0 := 4096) (n1 := 128) p k) * P2 (ix2 (n0 := 256) (n1 := 512) (upper k) q)
          + ∑ k : Fin 128, P1 (ix2 (n0 := 4096) (n1 := 128) p k) * P2 (ix2 (n0 := 256) (n1 := 512) (lower k) q))
        + P3 (ix2 (n0 := 1) (n1 := 512) 0 q) := by
  unfold k0_pay1
  refine (addf_apply _ _ _).trans ?_
  refine congrArg₂ (· + ·) ?_ (bias_at P3 p q)
  refine (product_at _ _ p q).trans ?_
  refine (sum_halves _).trans ?_
  refine congrArg₂ (· + ·) (Finset.sum_congr rfl fun k _ => ?_) (Finset.sum_congr rfl fun k _ => ?_)
  · exact congrArg₂ (· * ·) (beside_left _ _ p k) (congrFun (shapeCast_self P2 shapeCasts_S256x512_S256x512) _)
  · exact congrArg₂ (· * ·) (beside_right _ _ p k) (congrFun (shapeCast_self P2 shapeCasts_S256x512_S256x512) _)

end Cert.KernelIdeal.Body

end
-- ==== Proof.BlockValue.lean ====
/-
  What one grid point leaves in its two output blocks, as the specification at the block's rows.

  Stated for ARBITRARY loaded blocks `P0 … P4` (input, hidden state, stacked weight, bias row, cell state) together
  with the facts that tie them to whole arrays: block row `p` is array row `r` of x, h and c; the stacked weight's upper
  128 rows are W and its lower 128 rows are U; the bias row is b. Under those facts the body's pre-activation at block
  row `p` is the specification's at array row `r`, and so the block written to the cell-state output is the
  specification's new cell state at row `r`, the block written to the hidden-state output its new hidden state.
-/
import proofs.«181633_j30640296690430_2_alg».proof.Proof.Gen.KernelIdeal.Value
import proofs.«181633_j30640296690430_2_alg».proof.Proof.PreactAt
import proofs.«181633_j30640296690430_2_alg».proof.Proof.Spec

noncomputable section

open scoped BigOperators

namespace Cert.KernelIdeal.Body

open Cert.KernelIdeal Cert.KernelIdeal.Gen Cert.KernelIdeal.Value
open Idealize.ShloMosaic Idealize.ShloMosaic.ValueIdx Cert.CellSpec

/-- How the five loaded blocks sit in the whole arrays: block row `p` is array row `r`; the stacked weight is W over U;
    the bias row is b. -/
structure RowOf (P0 P1 P4 : Vec Ideal S4096x128 .f32) (P2 : FVec Ideal S256x512 .bf16) (P3 : Vec Ideal S1x512 .f32)
    (x h c : Rows.Idx → EReal) (W U : Wts.Idx → EReal) (b : Bias.Idx → EReal) (p : Fin 4096) (r : Fin 131072) : Prop where
  inp : ∀ k : Fin 128, P0 (ix2 (n0 := 4096) (n1 := 128) p k) = x (ix2 (n0 := 131072) (n1 := 128) r k)
  hid : ∀ k : Fin 128, P1 (ix2 (n0 := 4096) (n1 := 128) p k) = h (ix2 (n0 := 131072) (n1 := 128) r k)
  cell : ∀ j : Fin 128, P4 (ix2 (n0 := 4096) (n1 := 128) p j) = c (ix2 (n0 := 131072) (n1 := 128) r j)
  wUp : ∀ (k : Fin 128) (q : Fin 512), P2 (ix2 (n0 := 256) (n1 := 512) (upper k) q) = W (ix2 (n0 := 128) (n1 := 512) k q)
  wLo : ∀ (k : Fin 128) (q : Fin 512), P2 (ix2 (n0 := 256) (n1 := 512) (lower k) q) = U (ix2 (n0 := 128) (n1 := 512) k q)
  bias : ∀ q : Fin 512, P3 (ix2 (n0 := 1) (n1 := 512) 0 q) = b (ix1 (n := 512) q)

variable {P0 P1 P4 : Vec Ideal S4096x128 .f32} {P2 : FVec Ideal S256x512 .bf16} {P3 : Vec Ideal S1x512 .f32}
  {x h c : Rows.Idx → EReal} {W U : Wts.Idx → EReal} {b : Bias.Idx → EReal} {p : Fin 4096} {r : Fin 131072}

/-- The body's pre-activation at block row `p` is the specification's at array row `r`. -/
theorem preact_row (H : RowOf P0 P1 P4 P2 P3 x h c W U b p r) (q : Fin 512) :
    k0_pay1 (F := Ideal) P0 P1 P2 P3 (ix2 (n0 := 4096) (n1 := 512) p q) = preact x h W U b r q := by
  refine (preact_at P0 P1 P2 P3 p q).trans ?_
  unfold preact
  refine congrArg₂ (· + ·) (congrArg₂ (· + ·) (Finset.sum_congr rfl fun k _ => ?_) (Finset.sum_congr rfl fun k _ => ?_)) (H.bias q)
  · rw [H.inp k, H.wUp k q]
  · rw [H.hid k, H.wLo k q]

/-- The block the body writes to the cell-state output, at block row `p`, column `j`: the specification's new cell state
    at array row `r`, column `j`. -/
theorem cell_row (H : RowOf P0 P1 P4 P2 P3 x h c W U b p r) (j : Fin 128) :
    E6 (F := Ideal) P0 P1 P2 P3 P4 (ix2 (n0 := 4096) (n1 := 128) p j)
      = cellNext x h c W U b (ix2 (n0 := 131072) (n1 := 128) r j) := by
  have i0 : ix6_0 (ix2 (n0 := 4096) (n1 := 128) p j) = ix2 (n0 := 4096) (n1 := 512) p (col 128 (by norm_num) j) :=
    funext fun a => Fin.ext (by
      match a with
      | ⟨0, _⟩ => rfl
      | ⟨1, _⟩ => show j.val + 128 = 128 + j.val; omega)
  have i1 : ix6_1 (ix2 (n0 := 4096) (n1 := 128) p j) = ix2 (n0 := 4096) (n1 := 128) p j :=
    funext fun a => Fin.ext (by
      match a with
      | ⟨0, _⟩ => rfl
      | ⟨1, _⟩ => rfl)
  have i2 : ix6_2 (ix2 (n0 := 4096) (n1 := 128) p j) = ix2 (n0 := 4096) (n1 := 512) p (col 0 (by norm_num) j) :=
    funext fun a => Fin.ext (by
      match a with
      | ⟨0, _⟩ => rfl
      | ⟨1, _⟩ => show j.val = 0 + j.val; omega)
  have i3 : ix6_3 (ix2 (n0 := 4096) (n1 := 128) p j) = ix2 (n0 := 4096) (n1 := 512) p (col 256 (by norm_num) j) :=
    funext fun a => Fin.ext (by
      match a with
      | ⟨0, _⟩ => rfl
      | ⟨1, _⟩ => show j.val + 256 = 256 + j.val; omega)
  show FloatOps.addf
      (FloatOps.mulf (FloatOps.tanh (k0_pay1 (F := Ideal) P0 P1 P2 P3 (ix6_0 (ix2 (n0 := 4096) (n1 := 128) p j))))
        (P4 (ix6_1 (ix2 (n0 := 4096) (n1 := 128) p j))))
      (FloatOps.mulf (FloatOps.tanh (k0_pay1 (F := Ideal) P0 P1 P2 P3 (ix6_2 (ix2 (n0 := 4096) (n1 := 128) p j))))
        (FloatOps.tanh (k0_pay1 (F := Ideal) P0 P1 P2 P3 (ix6_3 (ix2 (n0 := 4096) (n1 := 128) p j))))) = _
  rw [i0, i1, i2, i3, preact_row H, preact_row H, preact_row H, H.cell j]
  rfl

/-- The block the body writes to the hidden-state output, at block row `p`, column `j`: the specification's new hidden
    state at array row `r`, column `j`. -/
theorem hid_row (H : RowOf P0 P1 P4 P2 P3 x h c W U b p r) (j : Fin 128) :
    E5 (F := Ideal) P0 P1 P2 P3 P4 (ix2 (n0 := 4096) (n1 := 128) p j)
      = hidNext x h c W U b (ix2 (n0 := 131072) (n1 := 128) r j) := by
  have i0 : ix5_0 (ix2 (n0 := 4096) (n1 := 128) p j) = ix2 (n0 := 4096) (n1 := 512) p (col 384 (by norm_num) j) :=
    funext fun a => Fin.ext (by
      match a with
      | ⟨0, _⟩ => rfl
      | ⟨1, _⟩ => show j.val + 384 = 384 + j.val; omega)
  have i1 : ix5_1 (ix2 (n0 := 4096) (n1 := 128) p j) = ix2 (n0 := 4096) (n1 := 512) p (col 128 (by norm_num) j) :=
    funext fun a => Fin.ext (by
      match a with
      | ⟨0, _⟩ => rfl
      | ⟨1, _⟩ => show j.val + 128 = 128 + j.val; omega)
  have i2 : ix5_2 (ix2 (n0 := 4096) (n1 := 128) p j) = ix2 (n0 := 4096) (n1 := 128) p j :=
    funext fun a => Fin.ext (by
      match a with
      | ⟨0, _⟩ => rfl
      | ⟨1, _⟩ => rfl)
  have i3 : ix5_3 (ix2 (n0 := 4096) (n1 := 128) p j) = ix2 (n0 := 4096) (n1 := 512) p (col 0 (by norm_num) j) :=
    funext fun a => Fin.ext (by
      match a with
      | ⟨0, _⟩ => rfl
      | ⟨1, _⟩ => show j.val = 0 + j.val; omega)
  have i4 : ix5_4 (ix2 (n0 := 4096) (n1 := 128) p j) = ix2 (n0 := 4096) (n1 := 512) p (col 256 (by norm_num) j) :=
    funext fun a => Fin.ext (by
      match a with
      | ⟨0, _⟩ => rfl
      | ⟨1, _⟩ => show j.val + 256 = 256 + j.val; omega)
  show FloatOps.mulf (FloatOps.tanh (k0_pay1 (F := Ideal) P0 P1 P2 P3 (ix5_0 (ix2 (n0 := 4096) (n1 := 128) p j))))
      (FloatOps.tanh (FloatOps.addf
        (FloatOps.mulf (FloatOps.tanh (k0_pay1 (F := Ideal) P0 P1 P2 P3 (ix5_1 (ix2 (n0 := 4096) (n1 := 128) p j))))
          (P4 (ix5_2 (ix2 (n0 := 4096) (n1 := 128) p j))))
        (FloatOps.mulf (FloatOps.tanh (k0_pay1 (F := Ideal) P0 P1 P2 P3 (ix5_3 (ix2 (n0 := 4096) (n1 := 128) p j))))
          (FloatOps.tanh (k0_pay1 (F := Ideal) P0 P1 P2 P3 (ix5_4 (ix2 (n0 := 4096) (n1 := 128) p j))))))) = _
  rw [i0, i1, i2, i3, i4, preact_row H, preact_row H, preact_row H, preact_row H, H.cell j]
  rfl

end Cert.KernelIdeal.Body

end
-- ==== Proof.ArraysIn.lean ====
/-
  How the five blocks a grid point loads sit in the argument arrays.

  The grid has 32 points; point `t` loads rows `4096·t … 4096·t + 4095` of the input, of the previous hidden state and of
  the previous cell state, and the whole stacked weight and the whole bias row (their block index is (0, 0) at every
  point). The stacked weight is written before the kernel runs, as W set over U and then cast to bf16 (the identity on
  extended reals), so its row `k < 128` is W's row `k` and its row `128 + k` is U's row `k`; the bias row is the 512 bias
  entries reshaped to one row. Together: the blocks at point `t`, block row `p`, are array row `4096·t + p` in the
  sense the block-level lemmas ask for.
-/
import proofs.«181633_j30640296690430_2_alg».proof.Proof.Gen.KernelIdeal.Value
import proofs.«181633_j30640296690430_2_alg».proof.Proof.BlockValue
import Idealize.ShloMosaic.Lib.StableHlo.Run
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.CellSpec
open Idealize.ShloMosaic.Pipeline (Dat)

variable (m : (ℓ : Loc nD τ sig) → Buf (Elt Ideal) ℓ)

/-- The printed index maps over the 32 grid points: the three batch-tiled inputs and both outputs are at block row `t`,
    block column 0; the stacked weight and the bias row are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The two arrays written before the kernel runs -/

/-- W set over U, cast to bf16. -/
def stack (a b : FVec Ideal S128x512 .f32) : FVec Ideal S256x512 .bf16 :=
  truncf (F := Ideal) (φ := .f32) .bf16
    (concatenate S256x512 0 [⟨S128x512, a⟩, ⟨S128x512, b⟩] concatenates_S128x512_S128x512_S256x512_d0) bitsLt_bf16_f32

/-- The bias entries as one row. -/
def asRow (v : (⟨S512, .f32⟩ : BufTy).Contents (Elt Ideal)) : (⟨S1x512, .f32⟩ : BufTy).Contents (Elt Ideal) :=
  fun i => shapeCast S1x512 v shapeCasts_S512_S1x512 i

/-- The stacked weight as the kernel finds it. -/
theorem stacked_eq (c : Dev nD) : V m c main_v1 = stack (m ((c : Thread nD τ).loc main_arg3)) (m ((c : Thread nD τ).loc main_arg4)) := by
  dsimp only [Gen.V, Gen.hostOps0]
  after_results
  rfl

/-- The bias row as the kernel finds it. -/
theorem biasRow_eq (c : Dev nD) : V m c main_v2 = asRow (m ((c : Thread nD τ).loc main_arg5)) := by
  dsimp only [Gen.V, Gen.hostOps0]
  after_results
  rfl

/-- Row `k` of the stacked weight's upper half is W's row `k`. -/
theorem stack_upper (a b : FVec Ideal S128x512 .f32) (k : Fin 128) (q : Fin 512) :
    stack a b (ix2 (n0 := 256) (n1 := 512) (upper k) q) = a (ix2 (n0 := 128) (n1 := 512) k q) :=
  concatenate_pair_apply_left (0 : Fin S256x512.rank) a b concatenates_S128x512_S128x512_S256x512_d0
    (ix2 (n0 := 256) (n1 := 512) (upper k) q) rfl (ix2 (n0 := 128) (n1 := 512) k q)
    (fun d => match d with | ⟨0, _⟩ => rfl | ⟨1, _⟩ => rfl)

/-- Row `128 + k` of the stacked weight is U's row `k`. -/
theorem stack_lower (a b : FVec Ideal S128x512 .f32) (k : Fin 128) (q : Fin 512) :
    stack a b (ix2 (n0 := 256) (n1 := 512) (lower k) q) = b (ix2 (n0 := 128) (n1 := 512) k q) :=
  concatenate_pair_apply_right (0 : Fin S256x512.rank) a b concatenates_S128x512_S128x512_S256x512_d0
    (ix2 (n0 := 256) (n1 := 512) (lower k) q) rfl rfl (ix2 (n0 := 128) (n1 := 512) k q)
    (fun d => match d with
      | ⟨0, _⟩ => fun h => absurd rfl h
      | ⟨1, _⟩ => fun _ => rfl)
    (by show k.val + 128 = 128 + k.val; omega)

/-- Entry `q` of the bias row is bias entry `q`. -/
theorem asRow_at (v : (⟨S512, .f32⟩ : BufTy).Contents (Elt Ideal)) (q : Fin 512) :
    asRow v (ix2 (n0 := 1) (n1 := 512) 0 q) = v (ix1 (n := 512) q) :=
  shapeCast_apply v shapeCasts_S512_S1x512 (ix2 (n0 := 1) (n1 := 512) 0 q) (ix1 (n := 512) q) (by
    rw [Shape.rowMajor_val_one, Shape.rowMajor_val_two]
    show q.val = 0 * 512 + q.val
    omega)

/-! ## The blocks at a point, read as rows of the arrays -/

/-- The input block at point `t`: block row `p` is array row `4096·t + p`. -/
theorem inp_block (c : Dev nD) (t : Fin cfg0.N) (p : Fin 4096) (r : Fin 131072) (hr : r.val = t.val * 4096 + p.val)
    (k : Fin 128) :
    (iblk m c 0 t : Vec Ideal S4096x128 .f32) (ix2 (n0 := 4096) (n1 := 128) p k)
      = (m ((c : Thread nD τ).loc main_arg0) : Rows.Idx → EReal) (ix2 (n0 := 131072) (n1 := 128) r k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 4096 + 1 * p.val = r.val; rw [e0, hr]; omega
  | ⟨1, _⟩ => show win0_0.index t (1 : Fin 2) * 128 + 1 * k.val = k.val; rw [e1]; omega

/-- The hidden-state block at point `t`: block row `p` is array row `4096·t + p`. -/
theorem hid_block (c : Dev nD) (t : Fin cfg0.N) (p : Fin 4096) (r : Fin 131072) (hr : r.val = t.val * 4096 + p.val)
    (k : Fin 128) :
    (iblk m c 1 t : Vec Ideal S4096x128 .f32) (ix2 (n0 := 4096) (n1 := 128) p k)
      = (m ((c : Thread nD τ).loc main_arg1) : Rows.Idx → EReal) (ix2 (n0 := 131072) (n1 := 128) r k) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 4096 + 1 * p.val = r.val; rw [e0, hr]; omega
  | ⟨1, _⟩ => show win0_1.index t (1 : Fin 2) * 128 + 1 * k.val = k.val; rw [e1]; omega

/-- The cell-state block at point `t`: block row `p` is array row `4096·t + p`. -/
theorem cell_block (c : Dev nD) (t : Fin cfg0.N) (p : Fin 4096) (r : Fin 131072) (hr : r.val = t.val * 4096 + p.val)
    (k : Fin 128) :
    (iblk m c 2 t : Vec Ideal S4096x128 .f32) (ix2 (n0 := 4096) (n1 := 128) p k)
      = (m ((c : Thread nD τ).loc main_arg2) : Rows.Idx → EReal) (ix2 (n0 := 131072) (n1 := 128) r k) := by
  obtain ⟨-, -, -, -, e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 4096 + 1 * p.val = r.val; rw [e0, hr]; omega
  | ⟨1, _⟩ => show win0_2.index t (1 : Fin 2) * 128 + 1 * k.val = k.val; rw [e1]; omega

/-- The stacked-weight block at any point is the whole stacked weight. -/
theorem weight_block (c : Dev nD) (t : Fin cfg0.N) (k : Fin 256) (q : Fin 512) :
    (iblk m c 3 t : FVec Ideal S256x512 .bf16) (ix2 (n0 := 256) (n1 := 512) k q)
      = stack (m ((c : Thread nD τ).loc main_arg3)) (m ((c : Thread nD τ).loc main_arg4)) (ix2 (n0 := 256) (n1 := 512) k q) := by
  obtain ⟨-, -, -, -, -, -, e0, e1, -⟩ := idx_facts t
  unfold iblk
  rw [View.read_apply]
  show V m c main_v1 _ = _
  rw [stacked_eq]
  refine congrArg (stack (m ((c : Thread nD τ).loc main_arg3)) (m ((c : Thread nD τ).loc main_arg4))) (funext fun a => Fin.ext ?_)
  match a with
  | ⟨0, _⟩ => show win0_3.index t (0 : Fin 2) * 256 + 1 * k.val = k.val; rw [e0]; omega
  | ⟨1, _⟩ => show win0_3.index t (1 : Fin 2) * 512 + 1 * q.val = q.val; rw [e1]; omega

/-- The bias-row block at any point is the whole bias row. -/
theorem bias_block (c : Dev nD) (t : Fin cfg0.N) (q : Fin 512) :
    (iblk m c 4 t : Vec Ideal S1x512 .f32) (ix2 (n0 := 1) (n1 := 512) 0 q)
      = asRow (m ((c : Thread nD τ).loc main_arg5)) (ix2 (n0 := 1) (n1 := 512) 0 q) := by
  obtain ⟨-, -, -, -, -, -, -, -, e0, e1, -⟩ := idx_facts t
  unfold iblk
  rw [View.read_apply]
  show V m c main_v2 _ = _
  rw [biasRow_eq]
  refine congrArg (asRow (m ((c : Thread nD τ).loc main_arg5))) (funext fun a => Fin.ext ?_)
  match a with
  | ⟨0, _⟩ => show win0_4.index t (0 : Fin 2) * 1 + 1 * 0 = 0; rw [e0]
  | ⟨1, _⟩ => show win0_4.index t (1 : Fin 2) * 512 + 1 * q.val = q.val; rw [e1]; omega

/-- THE BLOCKS AT POINT `t`, BLOCK ROW `p`, ARE ARRAY ROW `4096·t + p`. -/
theorem rowOf_blocks (c : Dev nD) (t : Fin cfg0.N) (p : Fin 4096) (r : Fin 131072) (hr : r.val = t.val * 4096 + p.val) :
    RowOf (iblk m c 0 t) (iblk m c 1 t) (iblk m c 2 t) (iblk m c 3 t) (iblk m c 4 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p r where
  inp := inp_block m c t p r hr
  hid := hid_block m c t p r hr
  cell := cell_block m c t p r hr
  wUp k q := (weight_block m c t (upper k) q).trans (stack_upper _ _ k q)
  wLo k q := (weight_block m c t (lower k) q).trans (stack_lower _ _ k q)
  bias q := (bias_block m c t q).trans (asRow_at _ q)

end Cert.KernelIdeal.Whole

end
-- ==== Proof.WholeArrays.lean ====
/-
  From blocks to whole arrays: what the kernel's two result arrays hold after the run.

  Point `t` writes back, to each output, a 4096-row block whose entry at block row `p`, column `j` is the specification
  at array row `4096·t + p`, column `j` — that is, block `t` of the specification read through the output's window. The
  32 blocks tile the 131072 rows (row `r` lies in block `r / 4096`), every point writes back, so after the run the
  cell-state result is the specification's new cell state and the hidden-state result its new hidden state, as whole
  arrays, and the argument arrays are unchanged.
-/
import proofs.«181633_j30640296690430_2_alg».proof.Proof.Gen.KernelIdeal.Value
import proofs.«181633_j30640296690430_2_alg».proof.Proof.BlockValue
import proofs.«181633_j30640296690430_2_alg».proof.Proof.ArraysIn
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.CellSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification's new cell state of the argument arrays, as the contents of the cell-state result. -/
abbrev cellOut (c : Dev nD) : Buf (Elt Ideal) ((c : Thread nD τ).loc main_v3_1) := cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The specification's new hidden state of the argument arrays, as the contents of the hidden-state result. -/
abbrev hidOut (c : Dev nD) : Buf (Elt Ideal) ((c : Thread nD τ).loc main_v3_0) := hidNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the body leaves in the cell-state output's buffer, for any loaded blocks: the one store covers the buffer and
    its loads are whole blocks, so it is the stored value index by index. -/
theorem cellBuf_at (x0 x1 x2 : Vec Ideal S4096x128 .f32) (x3 : Vec Ideal S256x512 .bf16) (x4 : Vec Ideal S1x512 .f32)
    (y : S4096x128.Idx) : out0_6 x0 x1 x2 x3 x4 y = E6 x0 x1 x3 x4 x2 y := by
  unfold out0_6
  simp only [View.ld_unit_zero (S := S4096x128) hz, View.ld_unit_zero (S := S256x512) hz, View.ld_unit_zero (S := S1x512) hz]
  exact canon6_eq x0 x1 x3 x4 x2 y

/-- The same for the hidden-state output's buffer. -/
theorem hidBuf_at (x0 x1 x2 : Vec Ideal S4096x128 .f32) (x3 : Vec Ideal S256x512 .bf16) (x4 : Vec Ideal S1x512 .f32)
    (y : S4096x128.Idx) : out0_5 x0 x1 x2 x3 x4 y = E5 x0 x1 x3 x4 x2 y := by
  unfold out0_5
  simp only [View.ld_unit_zero (S := S4096x128) hz, View.ld_unit_zero (S := S256x512) hz, View.ld_unit_zero (S := S1x512) hz]
  exact canon5_eq x0 x1 x3 x4 x2 y

/-- WHAT POINT `t` WRITES BACK to the cell-state result is block `t` of the specification's new cell state. -/
theorem cellFlushed_eq (c : Dev nD) (t : Fin cfg0.N) :
    (dats m 0 c).flushed 6 t = ((cfg0.win 6).blk t).view.read (Elt Ideal) (cellOut m c) := by
  obtain ⟨-, -, -, -, -, -, -, -, -, -, -, -, e0, e1⟩ := idx_facts t
  have ht : t.val < 32 := lt_of_lt_of_eq t.isLt N_0
  show (cfg0.win 6).cut (grid0.coords t) ((dats m 0 c).after 6 t) = _
  rw [after0_6]
  refine funext fun (y : S4096x128.Idx) => ?_
  obtain ⟨p, j, rfl⟩ : ∃ (p : Fin 4096) (j : Fin 128), y = ix2 (n0 := 4096) (n1 := 128) p j := ⟨y 0, y 1, eq_ix2 y⟩
  have hp : p.val < 4096 := p.isLt
  show out0_6 (iblk m c 0 t) (iblk m c 1 t) (iblk m c 2 t) (iblk m c 3 t) (iblk m c 4 t) (ix2 (n0 := 4096) (n1 := 128) p j)
    = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 (n0 := 4096) (n1 := 128) p j))
  refine (cellBuf_at _ _ _ _ _ _).trans ?_
  refine (cell_row (rowOf_blocks m c t p ⟨t.val * 4096 + p.val, by omega⟩ rfl) j).trans ?_
  refine congrArg (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (funext fun a => Fin.ext ?_)
  match a with
  | ⟨0, _⟩ => show t.val * 4096 + p.val = win0_6.index t (0 : Fin 2) * 4096 + 1 * p.val; rw [e0]; omega
  | ⟨1, _⟩ => show j.val = win0_6.index t (1 : Fin 2) * 128 + 1 * j.val; rw [e1]; omega

/-- WHAT POINT `t` WRITES BACK to the hidden-state result is block `t` of the specification's new hidden state. -/
theorem hidFlushed_eq (c : Dev nD) (t : Fin cfg0.N) :
    (dats m 0 c).flushed 5 t = ((cfg0.win 5).blk t).view.read (Elt Ideal) (hidOut m c) := by
  obtain ⟨-, -, -, -, -, -, -, -, -, -, e0, e1, -⟩ := idx_facts t
  have ht : t.val < 32 := lt_of_lt_of_eq t.isLt N_0
  show (cfg0.win 5).cut (grid0.coords t) ((dats m 0 c).after 5 t) = _
  rw [after0_5]
  refine funext fun (y : S4096x128.Idx) => ?_
  obtain ⟨p, j, rfl⟩ : ∃ (p : Fin 4096) (j : Fin 128), y = ix2 (n0 := 4096) (n1 := 128) p j := ⟨y 0, y 1, eq_ix2 y⟩
  have hp : p.val < 4096 := p.isLt
  show out0_5 (iblk m c 0 t) (iblk m c 1 t) (iblk m c 2 t) (iblk m c 3 t) (iblk m c 4 t) (ix2 (n0 := 4096) (n1 := 128) p j)
    = hidNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 5).blk t).view.emb (ix2 (n0 := 4096) (n1 := 128) p j))
  refine (hidBuf_at _ _ _ _ _ _).trans ?_
  refine (hid_row (rowOf_blocks m c t p ⟨t.val * 4096 + p.val, by omega⟩ rfl) j).trans ?_
  refine congrArg (hidNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (funext fun a => Fin.ext ?_)
  match a with
  | ⟨0, _⟩ => show t.val * 4096 + p.val = win0_5.index t (0 : Fin 2) * 4096 + 1 * p.val; rw [e0]; omega
  | ⟨1, _⟩ => show j.val = win0_5.index t (1 : Fin 2) * 128 + 1 * j.val; rw [e1]; omega

/-- An index of the cell-state result lies in point `t`'s block iff each coordinate is in the block's range. -/
theorem mem_cellBlk (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v3_1).slice (win0_6.rect t)).set ↔ _
  rw [View.set_slice_whole, Rect.mem_set_unit]
  exact Iff.rfl

/-- The same for the hidden-state result. -/
theorem mem_hidBlk (t : Fin cfg0.N) (i : S131072x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v3_0).slice (win0_5.rect t)).set ↔ _
  rw [View.set_slice_whole, Rect.mem_set_unit]
  exact Iff.rfl

/-- The 32 row blocks tile the rows: row `r` lies in the block of point `r / 4096`, which writes back. -/
theorem cell_cover (i : S131072x128.Idx) :
    ∃ t : Fin cfg0.N, (cfg0.win 6).flush t = true ∧ i ∈ ((cfg0.win 6).blk t).view.set := by
  have h0 : (i 0).val < 131072 := (i 0).isLt
  have h1 : (i 1).val < 128 := (i 1).isLt
  have hlt : (i 0).val / 4096 < cfg0.N := by
    show (i 0).val / 4096 < grid0.N
    rw [N_0]; omega
  obtain ⟨t, ht⟩ : ∃ t : Fin cfg0.N, t.val = (i 0).val / 4096 := ⟨⟨_, hlt⟩, rfl⟩
  obtain ⟨-, -, -, -, -, -, -, -, -, -, -, -, e0, e1⟩ := idx_facts t
  refine ⟨t, flush0_6 t, ?_⟩
  rw [mem_cellBlk]
  intro a
  match a with
  | ⟨0, _⟩ =>
    show win0_6.index t (0 : Fin 2) * 4096 ≤ (i 0).val ∧ (i 0).val < win0_6.index t (0 : Fin 2) * 4096 + 4096
    rw [e0, ht]; omega
  | ⟨1, _⟩ =>
    show win0_6.index t (1 : Fin 2) * 128 ≤ (i 1).val ∧ (i 1).val < win0_6.index t (1 : Fin 2) * 128 + 128
    rw [e1]; omega

/-- The same for the hidden-state result. -/
theorem hid_cover (i : S131072x128.Idx) :
    ∃ t : Fin cfg0.N, (cfg0.win 5).flush t = true ∧ i ∈ ((cfg0.win 5).blk t).view.set := by
  have h0 : (i 0).val < 131072 := (i 0).isLt
  have h1 : (i 1).val < 128 := (i 1).isLt
  have hlt : (i 0).val / 4096 < cfg0.N := by
    show (i 0).val / 4096 < grid0.N
    rw [N_0]; omega
  obtain ⟨t, ht⟩ : ∃ t : Fin cfg0.N, t.val = (i 0).val / 4096 := ⟨⟨_, hlt⟩, rfl⟩
  obtain ⟨-, -, -, -, -, -, -, -, -, -, e0, e1, -⟩ := idx_facts t
  refine ⟨t, flush0_5 t, ?_⟩
  rw [mem_hidBlk]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 128 ≤ (i 1).val ∧ (i 1).val < win0_5.index t (1 : Fin 2) * 128 + 128
    rw [e1]; omega

/-- THE CELL-STATE RESULT after the run is the specification's new cell state of the argument arrays. -/
theorem cell_final (c : Dev nD) : (dats m 0 c).arrAt 6 cfg0.N = cellOut m c :=
  (dats m 0 c).arrAt_eq_of_cover 6 (cellOut m c) (fun t _ => cellFlushed_eq m c t) (fun i => cell_cover i)

/-- THE HIDDEN-STATE RESULT after the run is the specification's new hidden state of the argument arrays. -/
theorem hid_final (c : Dev nD) : (dats m 0 c).arrAt 5 cfg0.N = hidOut m c :=
  (dats m 0 c).arrAt_eq_of_cover 5 (hidOut m c) (fun t _ => hidFlushed_eq m c t) (fun i => hid_cover i)

/-- THE RUN, READ: every weakly fair execution of the idealized kernel terminates with the two results at the
    specification of the argument arrays, and the argument arrays unchanged. -/
theorem run : θ_run defs (onTc (τ := τ) (main (F := Ideal))) ⟨m, fun _ => 0, ρ⟩ fun r => ∀ c : Dev nD,
      r.2.mem ((c : Thread nD τ).loc main_v3_0) = hidOut m c
      ∧ r.2.mem ((c : Thread nD τ).loc main_v3_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hid_final m c), (h c).2.1.trans (cell_final m c), (h c).2.2⟩)
    (run_blocks m ρ)

end Cert.KernelIdeal.Whole

end
-- ==== Proof.lean ====
/-
  One step of a recurrent cell with tanh on all four gates: the tiled kernel against the plain reference, on the
  extended reals.

  Both programs take the input x, the previous hidden state h and cell state c (131072 rows of 128), two weight
  matrices W and U (128 × 512) and a bias b (512), and return the new hidden state and the new cell state:
      z   = x·W + h·U + b                       (512 columns: input gate | forget gate | candidate | output gate)
      c'  = tanh z_f · c + tanh z_i · tanh z_c
      h'  = tanh z_o · tanh c'.
  The reference computes z as two matrix products added. The kernel walks the rows in 32 blocks of 4096; for each block it
  sets x's and h's rows side by side, multiplies the 256-wide result ONCE by W stacked over U (rounded to bf16 on the way
  in, which is the identity on extended reals), adds the bias, and applies the same gate arithmetic in the same order. The
  only difference between the two values is therefore one sum of 256 products against two sums of 128 products added:
  equal by associativity and commutativity of + alone, so the equality holds for all extended-real inputs and the
  finiteness of the inputs is never used.

  The modules: the specification as one function of the arrays and the sum-splitting law (Spec); the reference's
  operations read one at a time are the specification (RefIsSpec); the kernel's matmul-plus-bias at an index, split in
  halves (PreactAt); what a grid point leaves in its two output blocks, for arbitrary loaded blocks tied to the arrays
  (BlockValue); how the real blocks sit in the arrays, including the two arrays written before the kernel runs
  (ArraysIn); the blocks tile the results, hence the whole arrays and the run (WholeArrays). The three frames are the
  generated frame runs; the idealization rewrote nothing, so there is nothing to preserve.
-/
import proofs.«181633_j30640296690430_2_alg».proof.Defs
import proofs.«181633_j30640296690430_2_alg».proof.Proof.Gen.Kernel
import proofs.«181633_j30640296690430_2_alg».proof.Proof.Gen.Kernel.Frame
import proofs.«181633_j30640296690430_2_alg».proof.Proof.Gen.KernelIdeal
import proofs.«181633_j30640296690430_2_alg».proof.Proof.Gen.KernelIdeal.Frame
import proofs.«181633_j30640296690430_2_alg».proof.Proof.Gen.KernelIdeal.Value
import proofs.«181633_j30640296690430_2_alg».proof.Proof.Gen.ReferenceIdeal
import proofs.«181633_j30640296690430_2_alg».proof.Proof.Gen.ReferenceIdeal.Run
import proofs.«181633_j30640296690430_2_alg».proof.Proof.Gen.ReferenceIdeal.Read
import proofs.«181633_j30640296690430_2_alg».proof.Proof.Gen.Pre_finite_inputs
import proofs.«181633_j30640296690430_2_alg».proof.Proof.RefIsSpec
import proofs.«181633_j30640296690430_2_alg».proof.Proof.WholeArrays
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the idealized kernel's results are the specification of its arguments (the
    kernel's run, read) and the reference's results are the specification of ITS arguments (its run, read one operation at
    a time): the same arrays, so the same results. -/
theorem algebraic : Cert.algebraic_KernelIdeal_ReferenceIdeal := by
  intro m ρ m' ρ' _ hagree
  refine ⟨fun c => Cert.KernelIdeal.Whole.hidOut m c, fun c => Cert.KernelIdeal.Whole.cellOut m c,
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v18_eq, Cert.ReferenceIdeal.RefValue.hid_eq, a0, a1, a2, a3, a4, a5]
  · rw [Cert.ReferenceIdeal.Read.val_main_v15_eq, Cert.ReferenceIdeal.RefValue.cell_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
